-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Affine.lean ====
/-
  The dense layer both programs compute, written once as a function of the three argument arrays.

  For `x : [8192, 2048]`, `w : [2048, 2048]` and `b : [2048]` the result `[8192, 2048]` has at row `i`, column `j`

      out[i, j] = (Σ_k x[i, k] · w[j, k]) + b[j],

  the inner product of row `i` of `x` with row `j` of `w` (so `x · wᵀ`), plus the bias of column `j`. The
  sum and the products are those of the extended reals: nothing below needs an entry to be finite, because
  neither program regroups or distributes anything — both form the same products, sum them over the same `k`,
  and add the same bias last.
-/
import Idealize.ShloMosaic.PureOps.Ideal
import Idealize.ShloMosaic.Lib.ValueIdx

noncomputable section

open scoped BigOperators

namespace Cert.Affine

open Idealize.ShloMosaic Idealize.ShloMosaic.ValueIdx

/-- Entry (row `p`, column `q`) of `x · wᵀ + b`. -/
def entry (x : (⟨2, ![8192, 2048]⟩ : Shape).Idx → EReal) (w : (⟨2, ![2048, 2048]⟩ : Shape).Idx → EReal)
    (b : (⟨1, ![2048]⟩ : Shape).Idx → EReal) (p : Fin 8192) (q : Fin 2048) : EReal :=
  (∑ k : Fin 2048, x (ix2 p k) * w (ix2 q k)) + b (ix1 q)

/-- The whole result array `x · wᵀ + b`, index by index. -/
def affine (x : (⟨2, ![8192, 2048]⟩ : Shape).Idx → EReal) (w : (⟨2, ![2048, 2048]⟩ : Shape).Idx → EReal)
    (b : (⟨1, ![2048]⟩ : Shape).Idx → EReal) : (⟨2, ![8192, 2048]⟩ : Shape).Idx → EReal :=
  fun i => entry x w b (i 0) (i 1)

/-- At an index given by its coordinates the array is the entry. -/
theorem affine_ix2 (x : (⟨2, ![8192, 2048]⟩ : Shape).Idx → EReal) (w : (⟨2, ![2048, 2048]⟩ : Shape).Idx → EReal)
    (b : (⟨1, ![2048]⟩ : Shape).Idx → EReal) (p : Fin 8192) (q : Fin 2048) :
    affine x w b (ix2 p q) = entry x w b p q := rfl

end Cert.Affine

end
-- ==== Proof.RefAffine.lean ====
/-
  The reference program computes `x · wᵀ + b`.

  Its five host operations are: the transpose `wᵀ`; the product of `x` with `wᵀ` contracting the second axis of
  `x` against the first of `wᵀ`; the bias as a row `[1, 2048]`; that row repeated down the 8192 rows; the sum.
  Read at an index (i, j): the product is Σ_k x[i, k] · wᵀ[k, j], the transpose at (k, j) is w[j, k], and the
  repeated row at (i, j) is b[j] — the entry of `Cert.Affine.affine`.
-/
import proofs.«131775_j21251498180729_2_alg».proof.Proof.Gen.ReferenceIdeal.Read
import proofs.«131775_j21251498180729_2_alg».proof.Proof.Affine

noncomputable section

open scoped BigOperators

namespace Cert.ReferenceIdeal.RefAffine

open Cert.ReferenceIdeal Cert.ReferenceIdeal.Gen Cert.ReferenceIdeal.Read Idealize.ShloMosaic Idealize.ShloMosaic.ValueIdx
open Cert.Affine

/-- The left factor of the product's `k`-th term at (i, j) sits at (i, k) of `x`. -/
theorem left_at (i : S8192x2048.Idx) (k : Fin 2048) : lidx_main_v1 i k = ix2 (i 0) k :=
  funext fun a => by match a with | ⟨0, _⟩ => rfl | ⟨1, _⟩ => rfl

/-- The right factor sits at (k, j) of the transpose, which is (j, k) of `w`. -/
theorem right_at (i : S8192x2048.Idx) (k : Fin 2048) : idx_main_v0 (ridx_main_v1 i k) = ix2 (i 1) k :=
  funext fun a => by match a with | ⟨0, _⟩ => rfl | ⟨1, _⟩ => rfl

/-- The bias row repeated down the rows, read at (i, j), is entry j of `b`. -/
theorem bias_at (i : S8192x2048.Idx) : idx_main_v2 (idx_main_v3 i) = ix1 (i 1) :=
  funext fun a => by match a with | ⟨0, _⟩ => rfl

/-- The reference's result, as a function of its three arguments at the extended reals, is `x · wᵀ + b`. -/
theorem result_eq (x : (⟨S8192x2048, .f32⟩ : BufTy).Contents (Elt Ideal)) (w : (⟨S2048x2048, .f32⟩ : BufTy).Contents (Elt Ideal))
    (b : (⟨S2048, .f32⟩ : BufTy).Contents (Elt Ideal)) :
    val_main_v4 (F := Ideal) x w b = affine x w b := by
  funext i
  rw [val_main_v4_apply, val_main_v1_apply, val_main_v3_apply, val_main_v2_apply, bias_at]
  refine congrArg₂ (fun s t : EReal => s + t) (Finset.sum_congr rfl fun k _ => ?_) rfl
  rw [val_main_v0_apply, left_at, right_at]
  rfl

end Cert.ReferenceIdeal.RefAffine

end
-- ==== Proof.BodyAffine.lean ====
/-
  What the kernel body stores, read at one entry of its [512, 2048] tile.

  The body loads a tile `a` of 512 rows of `x`, the whole matrix `r = wᵀ` ([2048, 2048]) and the bias row
  `v` ([1, 2048]); it multiplies `a` by `r` into a zero accumulator and adds the bias row repeated down the 512
  rows. Over the extended reals the narrowing of `a` to sixteen bits is the identity and the accumulator is 0, so
  at row `p`, column `q` of the tile the stored value is

      (Σ_k a[p, k] · r[k, q]) + v[0, q].
-/
import proofs.«131775_j21251498180729_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BodyAffine

open Cert.KernelIdeal Cert.KernelIdeal.Gen Idealize.ShloMosaic Idealize.ShloMosaic.ValueIdx

/-- The product's left operand index at output (p, q) and contraction coordinate `k` keeps the output's row. -/
theorem lhs_row (j : S512x2048.Idx) (κ : dot_S512x2048_S2048x2048_S512x2048_1_0_0_1_n_n.contr.Idx) :
    (dot_S512x2048_S2048x2048_S512x2048_1_0_0_1_n_n.lhsIdx j κ 0).val = (j 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

/-- The right operand index keeps the output's column. -/
theorem rhs_col (j : S512x2048.Idx) (κ : dot_S512x2048_S2048x2048_S512x2048_1_0_0_1_n_n.contr.Idx) :
    (dot_S512x2048_S2048x2048_S512x2048_1_0_0_1_n_n.rhsIdx j κ 1).val = (j 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The tile product into a zero accumulator, at row `p` and column `q`: the sum over the shared axis of the
    left operand's row `p` against the right operand's column `q`. -/
theorem product_apply (l : FVec Ideal S512x2048 .bf16) (r : FVec Ideal S2048x2048 .bf16) (p : Fin 512) (q : Fin 2048) :
    matmul dot_S512x2048_S2048x2048_S512x2048_1_0_0_1_n_n none l r (constant (F := Ideal) S512x2048 .f32 0x00000000#32) (ix2 p q)
      = ∑ k : Fin 2048, l (ix2 p k) * r (ix2 k q) := by
  refine (Ideal.matmul_constant_zero_apply dot_S512x2048_S2048x2048_S512x2048_1_0_0_1_n_n none l r (ix2 p q)).trans ?_
  rw [← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q) ((contrEquiv1 dot_S512x2048_S2048x2048_S512x2048_1_0_0_1_n_n 2048 rfl rfl).symm k) = ix2 p k :=
    funext fun a => Fin.ext (by
      match a with
      | ⟨0, _⟩ => exact lhs_row _ _
      | ⟨1, _⟩ => exact (dot_S512x2048_S2048x2048_S512x2048_1_0_0_1_n_n.lhsIdx_val_of_single rfl _ _).trans hk)
  have er : dot_S512x2048_S2048x2048_S512x2048_1_0_0_1_n_n.rhsIdx (ix2 p q) ((contrEquiv1 dot_S512x2048_S2048x2048_S512x2048_1_0_0_1_n_n 2048 rfl rfl).symm k) = ix2 k q :=
    funext fun a => Fin.ext (by
      match a with
      | ⟨0, _⟩ => exact (dot_S512x2048_S2048x2048_S512x2048_1_0_0_1_n_n.rhsIdx_val_of_single rfl _ _).trans hk
      | ⟨1, _⟩ => exact rhs_col _ _)
  rw [el, er]

/-- A row `[1, 2048]` repeated down 512 rows, read at (p, q), is the row at (0, q). -/
theorem row_repeat_apply (v : FVec Ideal S1x2048 .f32) (h : S1x2048.Broadcasts S512x2048) (p : Fin 512) (q : Fin 2048) :
    broadcastTo S512x2048 v h (ix2 p q) = v (ix2 0 q) :=
  broadcastTo_apply v h (ix2 p q) (ix2 0 q) (fun a => by
    match a with
    | ⟨0, _⟩ => show (0 : Nat) = if (1 : Nat) = 1 then 0 else _; rw [if_pos rfl]
    | ⟨1, _⟩ => show q.val = if (2048 : Nat) = 1 then 0 else q.val; rw [if_neg (by decide)])

/-- THE BODY'S STORED VALUE at row `p`, column `q` of the tile. -/
theorem stored_apply (a : FVec Ideal S512x2048 .f32) (r : FVec Ideal S2048x2048 .bf16) (v : FVec Ideal S1x2048 .f32)
    (p : Fin 512) (q : Fin 2048) :
    k0_pay1 (F := Ideal) a r v (ix2 p q) = (∑ k : Fin 2048, a (ix2 p k) * r (ix2 k q)) + v (ix2 0 q) := by
  unfold k0_pay1
  simp only [shapeCast_self]
  refine (addf_apply _ _ _).trans ?_
  exact congrArg₂ (fun s t : EReal => s + t) (product_apply _ r p q) (row_repeat_apply v _ p q)

end Cert.KernelIdeal.BodyAffine

end
-- ==== Proof.Staged.lean ====
/-
  What the kernel's launch finds in the two arrays the host prepared for it.

  Before the launch the host transposes the weights `w` (and narrows them to sixteen bits, the identity over the
  extended reals) and reshapes the bias `b : [2048]` into a row `[1, 2048]`. So the staged weights at (k, q) are
  `w[q, k]`, and the staged bias row at (0, q) is `b[q]`.
-/
import proofs.«131775_j21251498180729_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The staged weights are the transpose of the argument `w` (narrowed, which changes nothing here). -/
theorem weights_staged (c : Dev nD) :
    (V m c main_v1 : S2048x2048.Idx → EReal)
      = truncf (F := Ideal) .bf16 (transpose S2048x2048 [1, 0] (m ((c : Thread nD τ).loc main_arg1) : FVec Ideal S2048x2048 .f32)
          transposes_S2048x2048_S2048x2048_1_0) bitsLt_bf16_f32 := by
  dsimp only [V, hostOps0]; after_results

/-- At (k, q) they hold `w[q, k]`. -/
theorem weights_staged_apply (c : Dev nD) (k q : Fin 2048) :
    (V m c main_v1 : S2048x2048.Idx → EReal) (ix2 k q)
      = (m ((c : Thread nD τ).loc main_arg1) : S2048x2048.Idx → EReal) (ix2 q k) := by
  rw [weights_staged]
  exact transpose_ix2_apply (m ((c : Thread nD τ).loc main_arg1) : S2048x2048.Idx → EReal) transposes_S2048x2048_S2048x2048_1_0 k q

/-- The staged bias is the argument `b` as one row. -/
theorem bias_staged (c : Dev nD) :
    (V m c main_v2 : S1x2048.Idx → EReal)
      = shapeCast S1x2048 (m ((c : Thread nD τ).loc main_arg2) : S2048.Idx → EReal) shapeCasts_S2048_S1x2048 := by
  dsimp only [V, hostOps0]; after_results; rfl

/-- At (0, q) it holds `b[q]`. -/
theorem bias_staged_apply (c : Dev nD) (q : Fin 2048) :
    (V m c main_v2 : S1x2048.Idx → EReal) (ix2 0 q)
      = (m ((c : Thread nD τ).loc main_arg2) : S2048.Idx → EReal) (ix1 q) := by
  rw [bias_staged]
  exact shapeCast_a_1a_apply _ _ 0 q

end Cert.KernelIdeal.Staged

end
-- ==== Proof.Tiles.lean ====
/-
  From the sixteen tiles to the whole result.

  The launch walks 16 grid points. Point `t` reads rows `512·t … 512·t + 511` of `x`, the whole staged weights and
  the whole staged bias row, and writes back rows `512·t … 512·t + 511` of the result. Here:
  * each input block read at an entry, as an entry of an ARGUMENT array (`x_tile_apply`, `w_block_apply`,
    `b_block_apply`);
  * the body's stored value at tile entry (p, q) is entry (512·t + p, q) of `x · wᵀ + b` (`tile_entry`), so what
    point `t` writes back is block `t` of that one array (`written_eq`);
  * every row `r` of the result lies in the block of point `r / 512` (`covered`);
  * hence the result array ends as `x · wᵀ + b` (`final`), and so the run (`run`).
-/
import proofs.«131775_j21251498180729_2_alg».proof.Proof.Gen.KernelIdeal.Value
import proofs.«131775_j21251498180729_2_alg».proof.Proof.Affine
import proofs.«131775_j21251498180729_2_alg».proof.Proof.BodyAffine
import proofs.«131775_j21251498180729_2_alg».proof.Proof.Staged

noncomputable section

open scoped BigOperators

namespace Cert.KernelIdeal.Tiles

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Affine

variable (m : (ℓ : Loc nD τ sig) → Buf (Elt Ideal) ℓ) (ρ : Dev nD → PrngReg)

theorem zero_offsets : (![0, 0] : Fin 2 → Nat) = fun _ => 0 := funext fun a => by fin_cases a <;> rfl

/-- The block index of each window at each of the 16 points: `x`'s and the result's block row is the point's
    number, every other block index is 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks, read at an entry -/

/-- The tile of `x` at point `t`, at (p, k), is `x[512·t + p, k]`. -/
theorem x_tile_apply (c : Dev nD) (t : Fin cfg0.N) (p : Fin 512) (k : Fin 2048) (h : 512 * t.val + p.val < 8192) :
    (iblk m c 0 t : FVec Ideal S512x2048 .f32) (ix2 p k)
      = ((m ((c : Thread nD τ).loc main_arg0)) : S8192x2048.Idx → EReal) (ix2 ⟨512 * t.val + p.val, h⟩ k) := by
  unfold iblk
  rw [View.read_apply]
  show V m c main_arg0 (((cfg0.win 0).blk t).view.emb (ix2 p k)) = _
  rw [V_main_arg0]
  refine congrArg _ (funext fun a => Fin.ext ?_)
  obtain ⟨e0, e1, -⟩ := block_indices t
  match a with
  | ⟨0, _⟩ => show win0_0.index t (0 : Fin 2) * 512 + 1 * p.val = 512 * t.val + p.val; rw [e0]; omega
  | ⟨1, _⟩ => show win0_0.index t (1 : Fin 2) * 2048 + 1 * k.val = k.val; rw [e1]; omega

/-- The weights block at any point is the whole staged matrix: at (k, q) it is `w[q, k]`. -/
theorem w_block_apply (c : Dev nD) (t : Fin cfg0.N) (k q : Fin 2048) :
    (iblk m c 1 t : FVec Ideal S2048x2048 .bf16) (ix2 k q)
      = ((m ((c : Thread nD τ).loc main_arg1)) : S2048x2048.Idx → EReal) (ix2 q k) := by
  unfold iblk
  rw [View.read_apply]
  show (V m c main_v1 : S2048x2048.Idx → EReal) (((cfg0.win 1).blk t).view.emb (ix2 k q)) = _
  obtain ⟨-, -, e0, e1, -⟩ := block_indices t
  have e : ((cfg0.win 1).blk t).view.emb (ix2 k q) = ix2 k q := funext fun a => Fin.ext (by
    match a with
    | ⟨0, _⟩ => show win0_1.index t (0 : Fin 2) * 2048 + 1 * k.val = k.val; rw [e0]; omega
    | ⟨1, _⟩ => show win0_1.index t (1 : Fin 2) * 2048 + 1 * q.val = q.val; rw [e1]; omega)
  rw [e]
  exact Staged.weights_staged_apply m c k q

/-- The bias block at any point is the whole staged row: at (0, q) it is `b[q]`. -/
theorem b_block_apply (c : Dev nD) (t : Fin cfg0.N) (q : Fin 2048) :
    (iblk m c 2 t : FVec Ideal S1x2048 .f32) (ix2 0 q)
      = ((m ((c : Thread nD τ).loc main_arg2)) : S2048.Idx → EReal) (ix1 q) := by
  unfold iblk
  rw [View.read_apply]
  show (V m c main_v2 : S1x2048.Idx → EReal) (((cfg0.win 2).blk t).view.emb (ix2 0 q)) = _
  obtain ⟨-, -, -, -, e0, e1, -⟩ := block_indices t
  have e : ((cfg0.win 2).blk t).view.emb (ix2 (0 : Fin 1) q) = ix2 0 q := funext fun a => Fin.ext (by
    match a with
    | ⟨0, _⟩ => show win0_2.index t (0 : Fin 2) * 1 + 1 * 0 = 0; rw [e0]
    | ⟨1, _⟩ => show win0_2.index t (1 : Fin 2) * 2048 + 1 * q.val = q.val; rw [e1]; omega)
  rw [e]
  exact Staged.bias_staged_apply m c q

/-! ## One tile entry is one entry of `x · wᵀ + b` -/

/-- For a tile `a` holding rows `base … base + 511` of `x`, a matrix `r` holding `wᵀ` and a row `v` holding `b`,
    the body's stored value at tile index `y` is `x · wᵀ + b` at the array index `i` that sits `base` rows below `y`. -/
theorem tile_entry (a : FVec Ideal S512x2048 .f32) (r : FVec Ideal S2048x2048 .bf16) (v : FVec Ideal S1x2048 .f32)
    (x : S8192x2048.Idx → EReal) (w : S2048x2048.Idx → EReal) (b : S2048.Idx → EReal) (base : Nat)
    (ha : ∀ (p : Fin 512) (k : Fin 2048) (h : base + p.val < 8192), a (ix2 p k) = x (ix2 ⟨base + p.val, h⟩ k))
    (hr : ∀ k q : Fin 2048, r (ix2 k q) = w (ix2 q k))
    (hv : ∀ q : Fin 2048, v (ix2 0 q) = b (ix1 q))
    (y : S512x2048.Idx) (i : S8192x2048.Idx) (hi0 : (i 0).val = base + (y 0).val) (hi1 : (i 1).val = (y 1).val) :
    k0_pay1 (F := Ideal) a r v y = affine x w b i := by
  obtain ⟨p, q, rfl⟩ : ∃ (p : Fin 512) (q : Fin 2048), y = ix2 p q := ⟨y 0, y 1, eq_ix2 y⟩
  obtain ⟨p', q', rfl⟩ : ∃ (p' : Fin 8192) (q' : Fin 2048), i = ix2 p' q' := ⟨i 0, i 1, eq_ix2 i⟩
  have hp : p'.val = base + p.val := hi0
  have hq : q' = q := Fin.ext hi1
  subst hq
  have hlt : base + p.val < 8192 := hp ▸ p'.isLt
  obtain rfl : p' = ⟨base + p.val, hlt⟩ := Fin.ext hp
  rw [BodyAffine.stored_apply, affine_ix2]
  unfold entry
  rw [hv]
  refine congrArg (fun s : EReal => s + b (ix1 q')) (Finset.sum_congr rfl fun k _ => ?_)
  rw [ha p k hlt, hr]

/-! ## What a point writes back, the cover, the final array -/

/-- WHAT POINT `t` WRITES BACK is block `t` of `x · wᵀ + b` of the argument arrays. -/
theorem written_eq (c : Dev nD) (t : Fin cfg0.N) :
    (dats m 0 c).flushed 3 t
      = ((cfg0.win 3).blk t).view.read (Elt Ideal) (affine (m ((c : Thread nD τ).loc main_arg0)) (m ((c : Thread nD τ).loc main_arg1)) (m ((c : Thread nD τ).loc main_arg2))) := by
  rw [flushed3]
  unfold out0_3
  rw [View.canon_unit_zero zero_offsets]
  simp only [View.ld_unit_zero (S := S512x2048) zero_offsets, View.ld_unit_zero (S := S2048x2048) zero_offsets,
    View.ld_unit_zero (S := S1x2048) zero_offsets]
  funext y
  obtain ⟨-, -, -, -, -, -, e0, e1⟩ := block_indices t
  refine tile_entry (iblk m c 0 t) (iblk m c 1 t) (iblk m c 2 t) _ _ _ (512 * t.val)
    (x_tile_apply m c t) (w_block_apply m c t) (b_block_apply m c t) y _ ?_ ?_
  · show win0_3.index t (0 : Fin 2) * 512 + 1 * (y 0).val = 512 * t.val + (y 0).val; rw [e0]; omega
  · show win0_3.index t (1 : Fin 2) * 2048 + 1 * (y 1).val = (y 1).val; rw [e1]; omega

/-- An index of the result lies in point `t`'s block iff each coordinate lies in the block's range on its axis. -/
theorem mem_block (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v3).slice (win0_3.rect t)).set ↔ _
  rw [View.set_slice_whole, Rect.mem_set_unit]
  exact Iff.rfl

/-- Every index of the result is in some point's block: row `r` in the block of point `r / 512`. -/
theorem covered (i : S8192x2048.Idx) :
    ∃ t : Fin cfg0.N, (cfg0.win 3).flush t = true ∧ i ∈ ((cfg0.win 3).blk t).view.set := by
  have hN : cfg0.N = 16 := N_0
  have h0 : (i 0).val < 8192 := (i 0).isLt
  have h1 : (i 1).val < 2048 := (i 1).isLt
  obtain ⟨t, ht⟩ : ∃ t : Fin cfg0.N, t.val = (i 0).val / 512 := ⟨⟨(i 0).val / 512, by omega⟩, rfl⟩
  obtain ⟨-, -, -, -, -, -, e0, e1⟩ := block_indices t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 2048 ≤ (i 1).val ∧ (i 1).val < win0_3.index t (1 : Fin 2) * 2048 + 2048
    rw [e1]; omega

/-- THE RESULT ARRAY after the sixteen write-backs is `x · wᵀ + b`. -/
theorem final (c : Dev nD) :
    (dats m 0 c).arrAt 3 cfg0.N = affine (m ((c : Thread nD τ).loc main_arg0)) (m ((c : Thread nD τ).loc main_arg1)) (m ((c : Thread nD τ).loc main_arg2)) :=
  (dats m 0 c).arrAt_eq_of_cover 3 _ (fun t _ => written_eq m c t) covered

/-- THE KERNEL'S RUN: every execution ends with the result at `x · wᵀ + b` of the arguments, which are unchanged. -/
theorem run : θ_run defs (onTc (τ := τ) (main (F := Ideal))) ⟨m, fun _ => 0, ρ⟩ fun r => ∀ c : Dev nD,
      r.2.mem ((c : Thread nD τ).loc main_v3) = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Tiles

end
-- ==== Proof.lean ====
/-
  A dense layer `out = x · wᵀ + b` (`x : [8192, 2048]`, `w : [2048, 2048]`, `b : [2048]`): a tiled kernel against
  the plain array expression, equal over the extended reals.

  The kernel transposes `w` once on the host, turns `b` into a row, and walks 16 grid points; point `t` multiplies
  rows `512·t … 512·t + 511` of `x` by the whole transposed matrix into a zero accumulator, adds the bias row to
  every row of the tile, and writes the tile back as rows `512·t … 512·t + 511` of the result. The reference
  transposes `w`, forms the one product `x · wᵀ`, and adds `b` repeated down the rows. Over the extended reals the
  kernel's narrowing of its operands to sixteen bits is the identity, so entry (i, j) of either result is

      (Σ_k x[i, k] · w[j, k]) + b[j]      (`Cert.Affine.affine`),

  the same products summed over the same index with the same bias added last: no regrouping, no distribution,
  so nothing about finiteness of the inputs is used.

  The pieces: `Proof/Affine.lean` states that function; `Proof/RefAffine.lean` reads the reference's five host
  operations at an index and finds it; `Proof/BodyAffine.lean` reads the kernel body's stored value at a tile entry;
  `Proof/Staged.lean` reads the host-prepared transposed weights and bias row; `Proof/Tiles.lean` turns the sixteen
  write-backs into the whole array. Below, the five claims are assembled: the three runs (each program terminates
  without a fault and leaves its arguments as they were), the idealization (the kernel's text is read unchanged
  at the extended reals, so there is nothing to restate), and the equality of the two results.
-/
import proofs.«131775_j21251498180729_2_alg».proof.Defs
import proofs.«131775_j21251498180729_2_alg».proof.Proof.Gen.Kernel
import proofs.«131775_j21251498180729_2_alg».proof.Proof.Gen.Kernel.Skeleton
import proofs.«131775_j21251498180729_2_alg».proof.Proof.Gen.Kernel.Launch
import proofs.«131775_j21251498180729_2_alg».proof.Proof.Gen.Kernel.Points
import proofs.«131775_j21251498180729_2_alg».proof.Proof.Gen.Kernel.Frame
import proofs.«131775_j21251498180729_2_alg».proof.Proof.Gen.KernelIdeal
import proofs.«131775_j21251498180729_2_alg».proof.Proof.Gen.KernelIdeal.Skeleton
import proofs.«131775_j21251498180729_2_alg».proof.Proof.Gen.KernelIdeal.Launch
import proofs.«131775_j21251498180729_2_alg».proof.Proof.Gen.KernelIdeal.Points
import proofs.«131775_j21251498180729_2_alg».proof.Proof.Gen.KernelIdeal.Frame
import proofs.«131775_j21251498180729_2_alg».proof.Proof.Gen.ReferenceIdeal
import proofs.«131775_j21251498180729_2_alg».proof.Proof.Gen.Pre_finite_inputs
import proofs.«131775_j21251498180729_2_alg».proof.Proof.Gen.KernelIdeal.Value
import proofs.«131775_j21251498180729_2_alg».proof.Proof.Gen.ReferenceIdeal.Run
import proofs.«131775_j21251498180729_2_alg».proof.Proof.Gen.ReferenceIdeal.Read
import proofs.«131775_j21251498180729_2_alg».proof.Proof.Affine
import proofs.«131775_j21251498180729_2_alg».proof.Proof.RefAffine
import proofs.«131775_j21251498180729_2_alg».proof.Proof.Tiles
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- So does the reference: its run with the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten, so there is nothing to restate. -/
theorem preserves : Cert.preserves_Kernel_KernelIdeal := trivial

/-- From memories that agree on `x`, `w` and `b`, both programs end with the result array at `x · wᵀ + b`: the
    kernel by its sixteen tiles (`Tiles.run`), the reference by its five host operations read at an index
    (`RefAffine.result_eq`). -/
theorem algebraic : Cert.algebraic_KernelIdeal_ReferenceIdeal := by
  intro m ρ m' ρ' _ hagree
  refine ⟨fun c => Cert.Affine.affine
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefAffine.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
